-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S128x128 : Shape := ⟨2, ![128, 128]⟩
abbrev S128 : Shape := ⟨1, ![128]⟩
abbrev S1x1 : Shape := ⟨2, ![1, 1]⟩
abbrev S2x600000 : Shape := ⟨2, ![2, 600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_arg4 : FVec F S128x128 .f32) (main_arg5 : FVec F S128 .f32) (main_arg6 : FVec F S1x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1x1 .f32 := Host.absf main_arg6
  let main_cst_10 : FVec F S_ .f32 := constant S_ .f32 0x7F800000#32
  let main_v30 : FVec F S1x1 .f32 := broadcastInDim S1x1 ![] bcast_S_S1x1 main_cst_10
  let main_v31 : IVec S1x1 1 := cmpf .olt main_v29 main_v30
  let main_c_11 : IVec S_ 1 := constantI S_ 1 1#1
  let main_v32 : IVec S_ 1 := (fun x v => Host.reduce IntOp.andi x v reducesTo_S1x1_S_d0_1 h_S_) main_v31 main_c_11
  let main_v33 : IVec S_ 1 := andi main_v28 main_v32
  main_v33

def fn {F : FTy → Type} [FloatOps F] (main_arg0 : FVec F S100000x128 .f32) (main_arg1 : FVec F S600000x128 .f32) (main_arg2 : FVec F S128x128 .f32) (main_arg3 : FVec F S128 .f32) (main_arg4 : FVec F S128x128 .f32) (main_arg5 : FVec F S128 .f32) (main_arg6 : FVec F S1x1 .f32) (main_arg7 : IVec S2x600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S100000x128 : Shape := ⟨2, ![100000, 128]⟩
abbrev S600000x128 : Shape := ⟨2, ![600000, 128]⟩
abbrev S128x128 : Shape := ⟨2, ![128, 128]⟩
abbrev S128 : Shape := ⟨1, ![128]⟩
abbrev S1x1 : Shape := ⟨2, ![1, 1]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S5000x128 : Shape := ⟨2, ![5000, 128]⟩
abbrev S1x128 : Shape := ⟨2, ![1, 128]⟩

abbrev nBuf : Space → Nat
  | .hbm => 62
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1, .f32⟩
  | .hbm, ⟨7, _⟩ => ⟨S2x600000, .i32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S_, .f32⟩
  | .hbm, ⟨32, _⟩ => ⟨S600000x128, .f32⟩
  | .hbm, ⟨33, _⟩ => ⟨S600000x128, .f32⟩
  | .hbm, ⟨34, _⟩ => ⟨S600000x128, .f32⟩
  | .hbm, ⟨35, _⟩ => ⟨S_, .f32⟩
  | .hbm, ⟨36, _⟩ => ⟨S600000x128, .f32⟩
  | .hbm, ⟨37, _⟩ => ⟨S600000x128, .f32⟩
  | .hbm, ⟨38, _⟩ => ⟨S_, .f32⟩
  | .hbm, ⟨39, _⟩ => ⟨S1x1, .f32⟩
  | .hbm, ⟨40, _⟩ => ⟨S1x1, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S100000x128, .f32⟩
  | .hbm, ⟨52, _⟩ => ⟨S_, .i32⟩
  | .hbm, ⟨53, _⟩ => ⟨S600000, .i32⟩
  | .hbm, ⟨54, _⟩ => ⟨S600000, .i1⟩
  | .hbm, ⟨55, _⟩ => ⟨S_, .i32⟩
  | .hbm, ⟨56, _⟩ => ⟨S600000, .i32⟩
  | .hbm, ⟨57, _⟩ => ⟨S600000, .i32⟩
  | .hbm, ⟨58, _⟩ => ⟨S600000, .i32⟩
  | .hbm, ⟨59, _⟩ => ⟨S600000x1, .i32⟩
  | .hbm, ⟨60, _⟩ => ⟨S100000x128, .f32⟩
  | .hbm, ⟨61, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_call1_cst : Ref sig .tc := ⟨.hbm, 35, rfl⟩
abbrev main_call1_v0 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S1x1 : S_.BroadcastsInDim S1x1 (![] : Fin 0 → Fin S1x1.rank)
  bcast_S1x1_S100000x128_0_1 : S1x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v39) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S600000x128 : Shape := ⟨2, ![600000, 128]⟩
abbrev S128x128 : Shape := ⟨2, ![128, 128]⟩
abbrev S128 : Shape := ⟨1, ![128]⟩
abbrev S1x1 : Shape := ⟨2, ![1, 1]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1, .f32⟩
  | .hbm, ⟨7, _⟩ => ⟨S2x600000, .i32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S600000x128, .f32⟩
  | .hbm, ⟨22, _⟩ => ⟨S_, .f32⟩
  | .hbm, ⟨23, _⟩ => ⟨S600000x128, .f32⟩
  | .hbm, ⟨24, _⟩ => ⟨S600000x128, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S600000x128, .f32⟩
  | .hbm, ⟨35, _⟩ => ⟨S_, .f32⟩
  | .hbm, ⟨36, _⟩ => ⟨S600000x128, .f32⟩
  | .hbm, ⟨37, _⟩ => ⟨S600000x128, .f32⟩
  | .hbm, ⟨38, _⟩ => ⟨S_, .f32⟩
  | .hbm, ⟨39, _⟩ => ⟨S100000x128, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S100000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S100000x128, .f32⟩
  | .hbm, ⟨58, _⟩ => ⟨S_, .f32⟩
  | .hbm, ⟨59, _⟩ => ⟨S1x1, .f32⟩
  | .hbm, ⟨60, _⟩ => ⟨S1x1, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_cst : Ref sig .tc := ⟨.hbm, 35, rfl⟩
abbrev main_call1_v0 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call2_cst : Ref sig .tc := ⟨.hbm, 68, rfl⟩
abbrev main_call2_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S100000x128 : S_.BroadcastsInDim S100000x128 (![] : Fin 0 → Fin S100000x128.rank)
  bcast_S_S1x1 : S_.BroadcastsInDim S1x1 (![] : Fin 0 → Fin S1x1.rank)
  bcast_S1x1_S100000x128_0_1 : S1x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.NodeMLP.lean ====
/-
  The node update of a GINE layer, as mathematics over the extended reals.

  Per node `r` (a row of 128 features) the update is a two-layer perceptron of the row `h r`:
      out r q = (∑ k, max ((∑ j, h r j · W1 j k) + b1 k) 0 · W2 k q) + b2 q.
  `perceptronRow` is that expression for one row, given as a function of the feature index; `perceptron` is the
  whole [100000, 128] array, row by row. The row `h r` itself is the eps-scaled residual plus the messages that
  land on node `r`; how the two programs accumulate it differs only in where the residual enters the sum, and
  `scatterAdd_twice_eq_add` is the law that joins them: accumulating updates onto `a` is `a` plus accumulating
  them onto an array of zeros — commutativity is not even needed, only `0 + x = x` and associativity, which hold
  on every extended real, infinite ones included.
-/
import Idealize.ShloMosaic.PureOps.Ideal
import Idealize.ShloMosaic.PureOps.Ideal.Laws
import Idealize.ShloMosaic.Lib.ValueIdx

noncomputable section

namespace Cert.NodeMLP

open Idealize.ShloMosaic Idealize.ShloMosaic.ValueIdx

/-- The zero the rectifier compares with, kept as the float word both programs print. -/
abbrev zeroWord : EReal := Ideal.ofBits .f32 0x00000000#32

/-- One output row of the perceptron, at feature `q`, from the input row `hrow`: the hidden unit `k` is
    `max (⟨hrow, W1[:, k]⟩ + b1 k) 0`, and the output is `⟨hidden, W2[:, q]⟩ + b2 q`. -/
def perceptronRow (hrow : Fin 128 → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (q : Fin 128) : EReal :=
  (∑ k : Fin 128, max ((∑ j : Fin 128, hrow j * w1 (ix2 j k)) + b1 (ix1 k)) zeroWord * w2 (ix2 k q)) + b2 (ix1 q)

/-- The perceptron applied to every row of a [100000, 128] array. -/
def perceptron (h : (⟨2, ![100000, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) : (⟨2, ![100000, 128]⟩ : Shape).Idx → EReal :=
  fun i => perceptronRow (fun j => h (ix2 (⟨(i 0).val, idx2_lt0 i⟩ : Fin 100000) j)) w1 b1 w2 b2 ⟨(i 1).val, idx2_lt1 i⟩

/-- At the index `(r, q)` the perceptron is its row `r` at feature `q`. -/
theorem perceptron_ix2 (h : (⟨2, ![100000, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (r : Fin 100000) (q : Fin 128) :
    perceptron h w1 b1 w2 b2 (ix2 r q) = perceptronRow (fun j => h (ix2 r j)) w1 b1 w2 b2 q := rfl

/-- Accumulating two batches of updates onto `a` is `a` plus accumulating them onto zeros: at each element
    `(a + S₁) + S₂ = a + ((0 + S₁) + S₂)`, where `Sₙ` is the sum of the batch's updates that land there. -/
theorem scatterAdd_twice_eq_add {s si su : Shape} {φ : FTy} {w : Nat} (d : ScatterDims s si su)
    (a z : FVec Ideal s φ) (hz : ∀ i, z i = 0) (I1 I2 : IVec si w) (U1 U2 : FVec Ideal su φ) :
    Host.scatterAdd d (Host.scatterAdd d a I1 U1) I2 U2
      = addf a (Host.scatterAdd d (Host.scatterAdd d z I1 U1) I2 U2) := by
  funext i
  show (a i + _) + _ = a i + ((z i + _) + _)
  rw [hz i, zero_add, add_assoc]

end Cert.NodeMLP

end
-- ==== Proof.BlockValue.lean ====
/-
  The kernel body's one stored value, read at an index of the [5000, 128] block: row `p`, feature `q` of the
  perceptron of the block's row. Changes of float format are the identity on extended reals; a matrix product into
  a zero accumulator is the plain sum over the contracted feature; each bias is a [128] row recast to [1, 128] and
  broadcast down the 5000 rows.
-/
import proofs.«159494_j50869592655561_2_alg».proof.Proof.Gen.KernelIdeal.Skeleton
import proofs.«159494_j50869592655561_2_alg».proof.Proof.NodeMLP
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen
open Idealize.ShloMosaic Idealize.ShloMosaic.ValueIdx

/-- The left operand's row coordinate at output index `i` is `i`'s row, whatever the contracted index. -/
theorem lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The right operand's column coordinate at output index `i` is `i`'s column, whatever the contracted index. -/
theorem rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into a zero accumulator, at `(p, q)`: the sum over the contracted feature `k` of
    the left operand's row `p` times the right operand's column `q`. -/
theorem matmul_zero_at (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs_col _ _)
  rw [el, er]

/-- A [128] row recast to [1, 128] and broadcast down 5000 rows reads, at `(p, q)`, the row at `q`. -/
theorem bias_at (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-- The stored value at `(p, q)` is the perceptron of the loaded block's row `p` at feature `q`. -/
theorem payload_at (v0 : Vec Ideal S5000x128 .f32) (v3 : Vec Ideal S128x128 .f32) (v6 : Vec Ideal S128 .f32)
    (v13 : Vec Ideal S128x128 .f32) (v16 : Vec Ideal S128 .f32) (p : Fin 5000) (q : Fin 128) :
    k0_pay1 (F := Ideal) v0 v3 v6 v13 v16 (ix2 p q)
      = Cert.NodeMLP.perceptronRow (fun j => v0 (ix2 p j)) v3 v6 v13 v16 q := by
  unfold k0_pay1
  rw [addf_apply, matmul_zero_at, bias_at]
  simp only [truncf_apply, maximumf_apply, addf_apply, matmul_zero_at, bias_at, broadcast_apply, shapeCast_self]
  rfl

end Cert.KernelIdeal.BlockValue

end
-- ==== Proof.ArrayValue.lean ====
/-
  From blocks to the whole array. The grid has 20 points; point `t` reads rows `5000·t … 5000·t + 4999` of the
  pre-activation array (all 128 features) and the whole of both weight matrices and both bias rows, and writes
  back rows `5000·t … 5000·t + 4999` of the result. What it writes is, row by row, the perceptron of the row it
  read; so each written block is the matching block of ONE array — the perceptron of the pre-activation array the
  region found — and the 20 blocks tile the 100000 rows: row `r` is in block `r / 5000`.
-/
import proofs.«159494_j50869592655561_2_alg».proof.Proof.Gen.KernelIdeal.Value
import proofs.«159494_j50869592655561_2_alg».proof.Proof.BlockValue
import proofs.«159494_j50869592655561_2_alg».proof.Proof.NodeMLP

set_option maxRecDepth 16384

noncomputable section

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The index maps over the 20 grid points: the pre-activation window and the result window move down the rows
    with the point; the weights' and the biases' windows stay at block 0. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0)

/-- Row `p` of point `t`'s block is row `5000·t + p` of the array. -/
def row (t : Fin cfg0.N) (p : Fin 5000) : Fin 100000 :=
  ⟨t.val * 5000 + p.val, by have ht := t.isLt; have hN : cfg0.N = 20 := N_0; have hp := p.isLt; omega⟩

/-- The result array: the perceptron of the pre-activation array, weights and biases as the region finds them. -/
def result (c : Dev nD) : S100000x128.Idx → EReal :=
  Cert.NodeMLP.perceptron (V m c main_v39) (V m c main_arg2) (V m c main_arg3) (V m c main_arg4) (V m c main_arg5)

/-- The pre-activation window's block at point `t`, at `(p, j)`: the array at row `5000·t + p`. -/
theorem rows_at (c : Dev nD) (t : Fin cfg0.N) (p : Fin 5000) (j : Fin 128) :
    (iblk m c 0 t : Vec Ideal S5000x128 .f32) (ix2 p j) = (V m c main_v39 : S100000x128.Idx → EReal) (ix2 (row t p) j) := by
  show (V m c main_v39 : S100000x128.Idx → EReal) (((cfg0.win 0).blk t).view.emb (ix2 p j)) = (V m c main_v39 : S100000x128.Idx → EReal) (ix2 (row t p) j)
  obtain ⟨e0, e1, -⟩ := index_facts t
  refine congrArg (V m c main_v39 : S100000x128.Idx → EReal) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * j.val = j.val; rw [e1]; omega

/-- The first weight matrix's window holds the whole matrix at every point. -/
theorem weights1_whole (c : Dev nD) (t : Fin cfg0.N) : (iblk m c 1 t : Vec Ideal S128x128 .f32) = (V m c main_arg2 : S128x128.Idx → EReal) := by
  obtain ⟨-, -, e0, e1, -⟩ := index_facts t
  funext y
  show (V m c main_arg2 : S128x128.Idx → EReal) (((cfg0.win 1).blk t).view.emb y) = (V m c main_arg2 : S128x128.Idx → EReal) y
  refine congrArg (V m c main_arg2 : S128x128.Idx → EReal) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The first bias row's window holds the whole row at every point. -/
theorem bias1_whole (c : Dev nD) (t : Fin cfg0.N) : (iblk m c 2 t : Vec Ideal S128 .f32) = (V m c main_arg3 : S128.Idx → EReal) := by
  obtain ⟨-, -, -, -, e0, -⟩ := index_facts t
  funext y
  show (V m c main_arg3 : S128.Idx → EReal) (((cfg0.win 2).blk t).view.emb y) = (V m c main_arg3 : S128.Idx → EReal) y
  refine congrArg (V m c main_arg3 : S128.Idx → EReal) (funext fun a => Fin.ext ?_)
  match a with
  | ⟨0, _⟩ => show win0_2.index t (0 : Fin 1) * 128 + 1 * (y 0).val = (y 0).val; rw [e0]; omega

/-- The second weight matrix's window holds the whole matrix at every point. -/
theorem weights2_whole (c : Dev nD) (t : Fin cfg0.N) : (iblk m c 3 t : Vec Ideal S128x128 .f32) = (V m c main_arg4 : S128x128.Idx → EReal) := by
  obtain ⟨-, -, -, -, -, e0, e1, -⟩ := index_facts t
  funext y
  show (V m c main_arg4 : S128x128.Idx → EReal) (((cfg0.win 3).blk t).view.emb y) = (V m c main_arg4 : S128x128.Idx → EReal) y
  refine congrArg (V m c main_arg4 : S128x128.Idx → EReal) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The second bias row's window holds the whole row at every point. -/
theorem bias2_whole (c : Dev nD) (t : Fin cfg0.N) : (iblk m c 4 t : Vec Ideal S128 .f32) = (V m c main_arg5 : S128.Idx → EReal) := by
  obtain ⟨-, -, -, -, -, -, -, e0, -⟩ := index_facts t
  funext y
  show (V m c main_arg5 : S128.Idx → EReal) (((cfg0.win 4).blk t).view.emb y) = (V m c main_arg5 : S128.Idx → EReal) y
  refine congrArg (V m c main_arg5 : S128.Idx → EReal) (funext fun a => Fin.ext ?_)
  match a with
  | ⟨0, _⟩ => show win0_4.index t (0 : Fin 1) * 128 + 1 * (y 0).val = (y 0).val; rw [e0]; omega

/-- Element `(p, q)` of the result window's block at point `t` sits at row `5000·t + p`, feature `q` of the array. -/
theorem out_at (t : Fin cfg0.N) (p : Fin 5000) (q : Fin 128) :
    ((cfg0.win 5).blk t).view.emb (ix2 p q) = (ix2 (row t p) q : S100000x128.Idx) := by
  obtain ⟨-, -, -, -, -, -, -, -, e0, e1⟩ := index_facts t
  funext a
  apply Fin.ext
  match a with
  | ⟨0, _⟩ => show win0_5.index t (0 : Fin 2) * 5000 + 1 * p.val = t.val * 5000 + p.val; rw [e0]; omega
  | ⟨1, _⟩ => show win0_5.index t (1 : Fin 2) * 128 + 1 * q.val = q.val; rw [e1]; omega

/-- What point `t` writes back is block `t` of the result array. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero origin2]
  simp only [View.ld_unit_zero (S := S5000x128) origin2, View.ld_unit_zero (S := S128x128) origin2, View.ld_unit_zero (S := S128) origin1]
  funext y
  obtain ⟨p, q, rfl⟩ : ∃ (p : Fin 5000) (q : Fin 128), y = ix2 p q := ⟨y 0, y 1, eq_ix2 y⟩
  show k0_pay1 (F := Ideal) (iblk m c 0 t) (iblk m c 1 t) (iblk m c 2 t) (iblk m c 3 t) (iblk m c 4 t) (ix2 p q)
    = result m c (((cfg0.win 5).blk t).view.emb (ix2 p q))
  refine (BlockValue.payload_at (iblk m c 0 t) (iblk m c 1 t) (iblk m c 2 t) (iblk m c 3 t) (iblk m c 4 t) p q).trans ?_
  rw [out_at t p q, weights1_whole m c t, bias1_whole m c t, weights2_whole m c t, bias2_whole m c t]
  unfold result
  rw [Cert.NodeMLP.perceptron_ix2]
  exact congrArg (fun f => Cert.NodeMLP.perceptronRow f _ _ _ _ q) (funext fun j => rows_at m c t p j)

/-- An index of the array is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v40).slice (win0_5.rect t)).set ↔ _
  rw [View.set_slice_whole, Rect.mem_set_unit]
  exact Iff.rfl

/-- The blocks tile the array: row `r` is in the block of point `r / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by omega⟩, flush0_5 _, ?_⟩
  rw [mem_block]
  obtain ⟨-, -, -, -, -, -, -, -, e0, e1⟩ := index_facts ⟨(i 0).val / 5000, by omega⟩
  intro a
  match a with
  | ⟨0, _⟩ =>
    show win0_5.index ⟨(i 0).val / 5000, _⟩ (0 : Fin 2) * 5000 ≤ (i 0).val ∧ (i 0).val < win0_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, _⟩ (1 : Fin 2) * 128 ≤ (i 1).val ∧ (i 1).val < win0_5.index ⟨(i 0).val / 5000, _⟩ (1 : Fin 2) * 128 + 128
    rw [e1]; omega

/-- The result array after the run. -/
theorem final (c : Dev nD) : (dats m 0 c).arrAt 5 cfg0.N = result m c :=
  (dats m 0 c).arrAt_eq_of_cover 5 (result m c) (fun t _ => flushed_eq m c t) cover

/-- The kernel's run, read: the result buffer ends at the perceptron of the pre-activation array, the arguments unchanged. -/
theorem run : θ_run defs (onTc (τ := τ) (main (F := Ideal))) ⟨m, fun _ => 0, ρ⟩ fun r => ∀ c : Dev nD,
      r.2.mem ((c : Thread nD τ).loc main_v40) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.ArrayValue

end
-- ==== Proof.HostValue.lean ====
/-
  The array the kernel's perceptron reads. Before the region the kernel's host program forms the pre-activation
  array by accumulating the two batches of messages directly onto the eps-scaled residual `(1 + eps) · x`; the
  reference accumulates them onto zeros and adds the residual afterwards. The index vectors (the two rows of the
  edge list, negative entries wrapped once) and the messages (the rectified sums of a gathered endpoint row and the
  edge's attributes) are the same terms of the arguments in both programs, so they are carried here under the
  names the reference's stages give them and never opened; only the spine — residual, zero array, the two
  accumulations, the final sum — is.
-/
import proofs.«159494_j50869592655561_2_alg».proof.Proof.Gen.KernelIdeal.Frame
import proofs.«159494_j50869592655561_2_alg».proof.Proof.Gen.ReferenceIdeal.Read
import proofs.«159494_j50869592655561_2_alg».proof.Proof.NodeMLP

noncomputable section

namespace Cert.KernelIdeal.HostValue

open Cert.KernelIdeal Cert.KernelIdeal.Gen
open Idealize.ShloMosaic Idealize.ShloMosaic.TcCoe Idealize.SL.Sem Idealize.ShloMosaic.StableHlo

/-- The messages accumulated onto the residual: the first batch at the first endpoints, the second at the second. -/
def preActivation (x0 : (⟨S100000x128, .f32⟩ : BufTy).Contents (Elt Ideal)) (x1 : (⟨S600000x128, .f32⟩ : BufTy).Contents (Elt Ideal))
    (x6 : (⟨S1x1, .f32⟩ : BufTy).Contents (Elt Ideal)) (x7 : (⟨S2x600000, .i32⟩ : BufTy).Contents (Elt Ideal)) :
    FVec Ideal Cert.ReferenceIdeal.S100000x128 .f32 :=
  Host.scatterAdd (F := Ideal) (φ := .f32) Cert.ReferenceIdeal.scatter_S100000x128_S600000x1_S600000x128_1_0_0_1
    (Host.scatterAdd (F := Ideal) (φ := .f32) Cert.ReferenceIdeal.scatter_S100000x128_S600000x1_S600000x128_1_0_0_1
      (Cert.ReferenceIdeal.Read.val_main_v40 (F := Ideal) x0 x6)
      (Cert.ReferenceIdeal.Read.val_main_v28 (F := Ideal) x7)
      (Cert.ReferenceIdeal.Read.val_main_v12 (F := Ideal) x0 x1 x7))
    (Cert.ReferenceIdeal.Read.val_main_v35 (F := Ideal) x7)
    (Cert.ReferenceIdeal.Read.val_main_v21 (F := Ideal) x0 x1 x7)

/-- The reference's array of zeros is zero at every index. -/
theorem zeros_apply (i : Cert.ReferenceIdeal.S100000x128.Idx) : Cert.ReferenceIdeal.Read.val_main_v22 (F := Ideal) i = 0 := by
  rw [Cert.ReferenceIdeal.Read.val_main_v22_apply, Cert.ReferenceIdeal.Read.val_main_cst_apply]
  exact Ideal.ofBits_zero_f32

/-- Accumulating onto the residual is the residual plus accumulating onto zeros: the kernel's pre-activation array
    is the reference's. -/
theorem preActivation_eq (x0 : (⟨S100000x128, .f32⟩ : BufTy).Contents (Elt Ideal)) (x1 : (⟨S600000x128, .f32⟩ : BufTy).Contents (Elt Ideal))
    (x6 : (⟨S1x1, .f32⟩ : BufTy).Contents (Elt Ideal)) (x7 : (⟨S2x600000, .i32⟩ : BufTy).Contents (Elt Ideal)) :
    preActivation x0 x1 x6 x7 = Cert.ReferenceIdeal.Read.val_main_v41 (F := Ideal) x0 x1 x6 x7 := by
  unfold preActivation Cert.ReferenceIdeal.Read.val_main_v41 Cert.ReferenceIdeal.Read.val_main_v36 Cert.ReferenceIdeal.Read.val_main_v29
  exact Cert.NodeMLP.scatterAdd_twice_eq_add _ _ _ zeros_apply _ _ _ _

variable (m : (ℓ : Loc nD τ sig) → Buf (Elt Ideal) ℓ)

set_option maxRecDepth 16384 in
set_option maxHeartbeats 8000000 in
/-- What the region finds in the buffer its first window stages: the pre-activation array of the arguments. -/
theorem entry_eq (c : Dev nD) :
    (V m c main_v39 : (⟨S100000x128, .f32⟩ : BufTy).Contents (Elt Ideal))
      = preActivation (m ((c : Thread nD τ).loc main_arg0)) (m ((c : Thread nD τ).loc main_arg1))
          (m ((c : Thread nD τ).loc main_arg6)) (m ((c : Thread nD τ).loc main_arg7)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

end Cert.KernelIdeal.HostValue

end
-- ==== Proof.RefPerceptron.lean ====
/-
  The reference's result, read at an index: it is the perceptron of the array `h` that its host program forms
  before the first matrix product (the eps-scaled residual plus the accumulated messages). Row `r`, feature `q`:
  the second `dot_general` sums over the hidden unit `k`, the rectifier and the first bias are pointwise in `(r, k)`,
  the first `dot_general` sums over the input feature `j`, and the two biases are rows broadcast down the nodes.
  The array `h` is not opened here.
-/
import proofs.«159494_j50869592655561_2_alg».proof.Proof.Gen.ReferenceIdeal.Read
import proofs.«159494_j50869592655561_2_alg».proof.Proof.NodeMLP

noncomputable section

namespace Cert.ReferenceIdeal.RefValue

open Cert.ReferenceIdeal Cert.ReferenceIdeal.Gen Cert.ReferenceIdeal.Read
open Idealize.ShloMosaic Idealize.ShloMosaic.ValueIdx

/-! The operand indices of the two products and of the two bias broadcasts, at `(r, q)` and `(r, k)`. -/

theorem lhs2_at (r : Fin 100000) (q k : Fin 128) : lidx_main_v47 (ix2 r q) k = ix2 r k :=
  funext fun a => Fin.ext (by match a with | ⟨0, _⟩ => rfl | ⟨1, _⟩ => rfl)
theorem rhs2_at (r : Fin 100000) (q k : Fin 128) : ridx_main_v47 (ix2 r q) k = ix2 k q :=
  funext fun a => Fin.ext (by match a with | ⟨0, _⟩ => rfl | ⟨1, _⟩ => rfl)
theorem lhs1_at (r : Fin 100000) (k j : Fin 128) : lidx_main_v42 (ix2 r k) j = ix2 r j :=
  funext fun a => Fin.ext (by match a with | ⟨0, _⟩ => rfl | ⟨1, _⟩ => rfl)
theorem rhs1_at (r : Fin 100000) (k j : Fin 128) : ridx_main_v42 (ix2 r k) j = ix2 j k :=
  funext fun a => Fin.ext (by match a with | ⟨0, _⟩ => rfl | ⟨1, _⟩ => rfl)
theorem bias2_at (r : Fin 100000) (q : Fin 128) : idx_main_v48 (idx_main_v49 (ix2 r q)) = ix1 q :=
  funext fun a => Fin.ext (by match a with | ⟨0, _⟩ => rfl)
theorem bias1_at (r : Fin 100000) (k : Fin 128) : idx_main_v43 (idx_main_v44 (ix2 r k)) = ix1 k :=
  funext fun a => Fin.ext (by match a with | ⟨0, _⟩ => rfl)

/-- The reference's result is the perceptron of its pre-activation array. -/
theorem result_eq (x0 : (⟨S100000x128, .f32⟩ : BufTy).Contents (Elt Ideal)) (x1 : (⟨S600000x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S1x1, .f32⟩ : BufTy).Contents (Elt Ideal)) (x7 : (⟨S2x600000, .i32⟩ : BufTy).Contents (Elt Ideal)) :
    val_main_v50 (F := Ideal) x0 x1 x2 x3 x4 x5 x6 x7
      = Cert.NodeMLP.perceptron (val_main_v41 (F := Ideal) x0 x1 x6 x7) x2 x3 x4 x5 := by
  funext i
  obtain ⟨r, q, rfl⟩ : ∃ (r : Fin 100000) (q : Fin 128), i = ix2 r q := ⟨i 0, i 1, eq_ix2 i⟩
  rw [Cert.NodeMLP.perceptron_ix2, val_main_v50_apply, val_main_v47_apply, val_main_v49_apply, val_main_v48_apply]
  simp only [lhs2_at, rhs2_at, bias2_at, val_main_v46_apply, val_main_v45_apply, val_main_v42_apply, val_main_v44_apply,
    val_main_v43_apply, val_main_call2_v0_apply, val_main_call2_cst_apply, lhs1_at, rhs1_at, bias1_at]
  rfl

end Cert.ReferenceIdeal.RefValue

end
-- ==== Proof.lean ====
/-
  A GINE node update, kernel against reference, over the extended reals.

  Both programs form, per node, the pre-activation row  h = (1 + eps) · x + (messages landing on the node), where an
  edge (u, v) sends relu(x[v] + e) to u and relu(x[u] + e) to v, and both then apply the same two-layer perceptron
  row by row:  out = relu(h · W1 + b1) · W2 + b2.
  They differ in two places, and in neither as functions on extended reals:
    * the kernel accumulates the messages directly onto the residual (1 + eps) · x, the reference onto zeros and adds
      the residual afterwards — equal because accumulation onto `a` is `a` plus accumulation onto zeros (`0 + s = s`
      and associativity of addition; no finiteness is used);
    * the kernel runs the perceptron in 20 blocks of 5000 rows with the matrix products in a narrower float format,
      the reference as two whole products — a change of format is the identity on extended reals, a product into a
      zero accumulator is the plain sum over the contracted feature, and the blocks tile the rows.
  The modules: NodeMLP (the perceptron and the accumulation law as mathematics), BlockValue (what one block's body
  stores, index by index), ArrayValue (the 20 blocks are ONE array), HostValue (the kernel's pre-activation array
  is the reference's), RefPerceptron (the reference's result is the perceptron of its pre-activation array). Here
  the five claims are assembled. The idealization rewrote nothing, so its soundness conjunct is `True`; each
  program's frame is its generated run with the values forgotten.
-/
import proofs.«159494_j50869592655561_2_alg».proof.Defs
import proofs.«159494_j50869592655561_2_alg».proof.Proof.Gen.Kernel
import proofs.«159494_j50869592655561_2_alg».proof.Proof.Gen.Kernel.Skeleton
import proofs.«159494_j50869592655561_2_alg».proof.Proof.Gen.Kernel.Launch
import proofs.«159494_j50869592655561_2_alg».proof.Proof.Gen.Kernel.Points
import proofs.«159494_j50869592655561_2_alg».proof.Proof.Gen.Kernel.Frame
import proofs.«159494_j50869592655561_2_alg».proof.Proof.Gen.KernelIdeal
import proofs.«159494_j50869592655561_2_alg».proof.Proof.Gen.KernelIdeal.Skeleton
import proofs.«159494_j50869592655561_2_alg».proof.Proof.Gen.KernelIdeal.Launch
import proofs.«159494_j50869592655561_2_alg».proof.Proof.Gen.KernelIdeal.Points
import proofs.«159494_j50869592655561_2_alg».proof.Proof.Gen.KernelIdeal.Frame
import proofs.«159494_j50869592655561_2_alg».proof.Proof.Gen.KernelIdeal.Value
import proofs.«159494_j50869592655561_2_alg».proof.Proof.Gen.ReferenceIdeal
import proofs.«159494_j50869592655561_2_alg».proof.Proof.Gen.ReferenceIdeal.Run
import proofs.«159494_j50869592655561_2_alg».proof.Proof.Gen.ReferenceIdeal.Read
import proofs.«159494_j50869592655561_2_alg».proof.Proof.Gen.Pre_finite_inputs
import proofs.«159494_j50869592655561_2_alg».proof.Proof.NodeMLP
import proofs.«159494_j50869592655561_2_alg».proof.Proof.BlockValue
import proofs.«159494_j50869592655561_2_alg».proof.Proof.ArrayValue
import proofs.«159494_j50869592655561_2_alg».proof.Proof.HostValue
import proofs.«159494_j50869592655561_2_alg».proof.Proof.RefPerceptron
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array, in terms of the argument arrays alone: the perceptron of the reference's
    pre-activation array. -/
theorem kernel_result_eq (m : (ℓ : Loc Cert.KernelIdeal.nD Cert.KernelIdeal.τ Cert.KernelIdeal.sig) → Buf (Elt Ideal) ℓ)
    (c : Dev Cert.KernelIdeal.nD) :
    Cert.KernelIdeal.ArrayValue.result m c
      = Cert.NodeMLP.perceptron
          (Cert.ReferenceIdeal.Read.val_main_v41 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7)))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  unfold Cert.KernelIdeal.ArrayValue.result
  rw [Cert.KernelIdeal.HostValue.entry_eq m c, Cert.KernelIdeal.HostValue.preActivation_eq,
    Cert.KernelIdeal.Gen.V_main_arg2 m c, Cert.KernelIdeal.Gen.V_main_arg3 m c, Cert.KernelIdeal.Gen.V_main_arg4 m c,
    Cert.KernelIdeal.Gen.V_main_arg5 m c]

/-- From memories that agree on the arguments, both programs end with the perceptron of the same pre-activation
    array of the same arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v50_eq, a0, a1, a2, a3, a4, a5, a6, a7, Cert.ReferenceIdeal.RefValue.result_eq]
  exact (kernel_result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
